-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x40962 : Shape := ⟨3, ![4, 64, 40962]⟩
abbrev S40962x19 : Shape := ⟨2, ![40962, 19]⟩
abbrev S64x1216 : Shape := ⟨2, ![64, 1216]⟩
abbrev S64 : Shape := ⟨1, ![64]⟩
abbrev S_ : Shape := ⟨0, ![]⟩

class Facts : Prop where
  bcast_S_S4x64x40962 : S_.BroadcastsInDim S4x64x40962 (![] : Fin 0 → Fin S4x64x40962.rank)
  reducesTo_S4x64x40962_S_d0_1_2 : S4x64x40962.ReducesTo [0, 1, 2] S_
  h_S_ : 0 < S_.numel
  bcast_S_S64x1216 : S_.BroadcastsInDim S64x1216 (![] : Fin 0 → Fin S64x1216.rank)
  reducesTo_S64x1216_S_d0_1 : S64x1216.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x64x40962 .f32) (main_arg1 : IVec S40962x19 32) (main_arg2 : FVec F S64x1216 .f32) (main_arg3 : FVec F S64 .f32) : IVec S_ 1 :=
  let main_v0 : FVec F S4x64x40962 .f32 := Host.absf main_arg0
  let main_cst : FVec F S_ .f32 := constant S_ .f32 0x7F800000#32
  let main_v1 : FVec F S4x64x40962 .f32 := broadcastInDim S4x64x40962 ![] bcast_S_S4x64x40962 main_cst
  let main_v2 : IVec S4x64x40962 1 := cmpf .olt main_v0 main_v1
  let main_c : IVec S_ 1 := constantI S_ 1 1#1
  let main_v3 : IVec S_ 1 := (fun x v => Host.reduce IntOp.andi x v reducesTo_S4x64x40962_S_d0_1_2 h_S_) main_v2 main_c
  let main_v4 : FVec F S64x1216 .f32 := Host.absf main_arg2
  let main_cst_0 : FVec F S_ .f32 := constant S_ .f32 0x7F800000#32
  let main_v5 : FVec F S64x1216 .f32 := broadcastInDim S64x1216 ![] bcast_S_S64x1216 main_cst_0
  let main_v6 : IVec S64x1216 1 := cmpf .olt main_v4 main_v5
  let main_c_1 : IVec S_ 1 := constantI S_ 1 1#1
  let main_v7 : IVec S_ 1 := (fun x v => Host.reduce IntOp.andi x v reducesTo_S64x1216_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x64x40962 : Shape := ⟨3, ![4, 64, 40962]⟩
abbrev S40962x19 : Shape := ⟨2, ![40962, 19]⟩
abbrev S64x1216 : Shape := ⟨2, ![64, 1216]⟩
abbrev S64 : Shape := ⟨1, ![64]⟩
abbrev S4x40962x64 : Shape := ⟨3, ![4, 40962, 64]⟩
abbrev S_ : Shape := ⟨0, ![]⟩
abbrev S40962x19x1 : Shape := ⟨3, ![40962, 19, 1]⟩
abbrev S4x40962x19x64 : Shape := ⟨4, ![4, 40962, 19, 64]⟩
abbrev S4x40962x1216 : Shape := ⟨3, ![4, 40962, 1216]⟩
abbrev S1x4096x1216 : Shape := ⟨3, ![1, 4096, 1216]⟩
abbrev S1x64x4096 : Shape := ⟨3, ![1, 64, 4096]⟩
abbrev S4096x1216 : Shape := ⟨2, ![4096, 1216]⟩
abbrev S64x4096 : Shape := ⟨2, ![64, 4096]⟩
abbrev S64x1 : Shape := ⟨2, ![64, 1]⟩

abbrev nBuf : Space → Nat
  | .hbm => 18
  | .vmem => 6
  | .smem => 0
  | _ => 0

abbrev bufTy : (tb : Table) → Fin (tcTables nBuf tb) → BufTy
  | .hbm, ⟨0, _⟩ => ⟨S4x64x40962, .f32⟩
  | .hbm, ⟨1, _⟩ => ⟨S40962x19, .i32⟩
  | .hbm, ⟨2, _⟩ => ⟨S64x1216, .f32⟩
  | .hbm, ⟨3, _⟩ => ⟨S64, .f32⟩
  | .hbm, ⟨4, _⟩ => ⟨S4x40962x64, .f32⟩
  | .hbm, ⟨5, _⟩ => ⟨S4x40962x64, .bf16⟩
  | .hbm, ⟨6, _⟩ => ⟨S_, .i32⟩
  | .hbm, ⟨7, _⟩ => ⟨S40962x19, .i32⟩
  | .hbm, ⟨8, _⟩ => ⟨S40962x19, .i1⟩
  | .hbm, ⟨9, _⟩ => ⟨S_, .i32⟩
  | .hbm, ⟨10, _⟩ => ⟨S40962x19, .i32⟩
  | .hbm, ⟨11, _⟩ => ⟨S40962x19, .i32⟩
  | .hbm, ⟨12, _⟩ => ⟨S40962x19, .i32⟩
  | .hbm, ⟨13, _⟩ => ⟨S40962x19x1, .i32⟩
  | .hbm, ⟨14, _⟩ => ⟨S4x40962x19x64, .bf16⟩
  | .hbm, ⟨15, _⟩ => ⟨S4x40962x1216, .bf16⟩
  | .hbm, ⟨16, _⟩ => ⟨S64x1216, .bf16⟩
  | .hbm, ⟨17, _⟩ => ⟨S4x64x40962, .f32⟩
  | .local _ .vmem, ⟨0, _⟩ => ⟨S1x4096x1216, .bf16⟩
  | .local _ .vmem, ⟨1, _⟩ => ⟨S1x4096x1216, .bf16⟩
  | .local _ .vmem, ⟨2, _⟩ => ⟨S64x1216, .bf16⟩
  | .local _ .vmem, ⟨3, _⟩ => ⟨S64, .f32⟩
  | .local _ .vmem, ⟨4, _⟩ => ⟨S1x64x4096, .f32⟩
  | .local _ .vmem, ⟨5, _⟩ => ⟨S1x64x4096, .f32⟩
  | _, _ => ⟨S4x64x40962, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x1216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x64x40962_S4x40962x64_0_2_1 : S4x64x40962.Transposes [0, 2, 1] S4x40962x64
  bitsLt_bf16_f32 : FTy.bits .bf16 < FTy.bits .f32
  bcast_S_S40962x19 : S_.BroadcastsInDim S40962x19 (![] : Fin 0 → Fin S40962x19.rank)
  bcast_S40962x19_S40962x19x1_0_1 : S40962x19.BroadcastsInDim S40962x19x1 (![0, 1] : Fin 2 → Fin S40962x19x1.rank)
  shapeCasts_S4x40962x19x64_S4x40962x1216 : S4x40962x19x64.ShapeCasts S4x40962x1216
  inb_S64x1216_S64x1216_0_0 : ∀ a, (![0, 0] : Fin 2 → Nat) a + S64x1216.size a ≤ S64x1216.size a
  h_S64x1216 : 0 < S64x1216.numel
  shapeCasts_S64x1216_S64x1216 : S64x1216.ShapeCasts S64x1216
  inb_S1x4096x1216_S1x4096x1216_0_0_0 : ∀ a, (![0, 0, 0] : Fin 3 → Nat) a + S1x4096x1216.size a ≤ S1x4096x1216.size a
  h_S1x4096x1216 : 0 < S1x4096x1216.numel
  shapeCasts_S1x4096x1216_S4096x1216 : S1x4096x1216.ShapeCasts S4096x1216
  inb_S64_S64_0 : ∀ a, (![0] : Fin 1 → Nat) a + S64.size a ≤ S64.size a
  h_S64 : 0 < S64.numel
  shapeCasts_S64_S64x1 : S64.ShapeCasts S64x1
  broadcasts_S64x1_S64x4096 : S64x1.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  gather_S4x40962x64_S40962x19x1_S4x40962x19x64_03_1_n_n_1_2_4164_wf : GatherDims.WF S4x40962x64 S40962x19x1 S4x40962x19x64 [0, 3] [1] [] [1] [] 2 ![4, 1, 64]
  dot_S64x1216_S4096x1216_S64x4096_1_1_0_0_n_n_wf : DotDims.WF S64x1216 S4096x1216 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x4096x1216.size a < S4x40962x1216.size a
  hwx0_0 : ∀ i : grid0.Coords, EltTy.bits .bf16 = 32 ∨ (Rect.unit (s := S4x40962x1216) (fun a => cc0_transform_0 i a * S1x4096x1216.size a) (fun a => (Pipeline.Clip.of (cc0_transform_0 i a) (S1x4096x1216.size a) (S4x40962x1216.size a)).extent (S1x4096x1216.size a)) fun a => Pipeline.Clip.inb (Pipeline.Clip.ok_of (hstart0_0 i a))).WholeWords (EltTy.packing .bf16)
  hwxs0_0 : ∀ i : grid0.Coords, EltTy.bits .bf16 = 32 ∨ (Rect.unit (s := S1x4096x1216) (fun _ => 0) (fun a => (Pipeline.Clip.of (cc0_transform_0 i a) (S1x4096x1216.size a) (S4x40962x1216.size a)).extent (S1x4096x1216.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1216.size a ≤ S64x1216.size a
  hwx0_1 : ∀ i : grid0.Coords, EltTy.bits .bf16 = 32 ∨ (Rect.block (s := S64x1216) S64x1216.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x64x4096.size a < S4x64x40962.size a
  hwx0_3 : ∀ i : grid0.Coords, EltTy.bits .f32 = 32 ∨ (Rect.unit (s := S4x64x40962) (fun a => cc0_transform_3 i a * S1x64x4096.size a) (fun a => (Pipeline.Clip.of (cc0_transform_3 i a) (S1x64x4096.size a) (S4x64x40962.size a)).extent (S1x64x4096.size a)) fun a => Pipeline.Clip.inb (Pipeline.Clip.ok_of (hstart0_3 i a))).WholeWords (EltTy.packing .f32)
  hwxs0_3 : ∀ i : grid0.Coords, EltTy.bits .f32 = 32 ∨ (Rect.unit (s := S1x64x4096) (fun _ => 0) (fun a => (Pipeline.Clip.of (cc0_transform_3 i a) (S1x64x4096.size a) (S4x64x40962.size a)).extent (S1x64x4096.size a)) fun a => (Nat.zero_add _).trans_le (Pipeline.Clip.extent_le (Pipeline.Clip.ok_of (hstart0_3 i a)))).WholeWords (EltTy.packing .f32)

variable [Facts₀]

def gather_S4x40962x64_S40962x19x1_S4x40962x19x64_03_1_n_n_1_2_4164 : GatherDims S4x40962x64 S40962x19x1 S4x40962x19x64 where
  offsetDims := [0, 3]
  collapsedSliceDims := [1]
  operandBatchingDims := []
  startIndicesBatchingDims := []
  startIndexMap := [1]
  indexVectorDim := 2
  sliceSizes := ![4, 1, 64]
  wf := gather_S4x40962x64_S40962x19x1_S4x40962x19x64_03_1_n_n_1_2_4164_wf
def dot_S64x1216_S4096x1216_S64x4096_1_1_0_0_n_n : DotDims S64x1216 S4096x1216 S64x4096 where
  lhsContracting := [1]
  rhsContracting := [1]
  lhsNonContracting := [0]
  rhsNonContracting := [0]
  lhsBatch := []
  rhsBatch := []
  wf := dot_S64x1216_S4096x1216_S64x4096_1_1_0_0_n_n_wf

abbrev win0_0 : Pipeline.Window sig grid0 :=
  Pipeline.Window.ofSpecClip (Memref.whole main_v9) S1x4096x1216.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v10) S64x1216.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v11) S1x64x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x40962 : Shape := ⟨3, ![4, 64, 40962]⟩
abbrev S40962x19 : Shape := ⟨2, ![40962, 19]⟩
abbrev S64x1216 : Shape := ⟨2, ![64, 1216]⟩
abbrev S64 : Shape := ⟨1, ![64]⟩
abbrev S4x40962x64 : Shape := ⟨3, ![4, 40962, 64]⟩
abbrev S_ : Shape := ⟨0, ![]⟩
abbrev S40962x19x1 : Shape := ⟨3, ![40962, 19, 1]⟩
abbrev S4x40962x19x64 : Shape := ⟨4, ![4, 40962, 19, 64]⟩
abbrev S4x40962x1216 : Shape := ⟨3, ![4, 40962, 1216]⟩
abbrev S1x1x64 : Shape := ⟨3, ![1, 1, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x64x40962, .f32⟩
  | .hbm, ⟨1, _⟩ => ⟨S40962x19, .i32⟩
  | .hbm, ⟨2, _⟩ => ⟨S64x1216, .f32⟩
  | .hbm, ⟨3, _⟩ => ⟨S64, .f32⟩
  | .hbm, ⟨4, _⟩ => ⟨S4x40962x64, .f32⟩
  | .hbm, ⟨5, _⟩ => ⟨S_, .i32⟩
  | .hbm, ⟨6, _⟩ => ⟨S40962x19, .i32⟩
  | .hbm, ⟨7, _⟩ => ⟨S40962x19, .i1⟩
  | .hbm, ⟨8, _⟩ => ⟨S_, .i32⟩
  | .hbm, ⟨9, _⟩ => ⟨S40962x19, .i32⟩
  | .hbm, ⟨10, _⟩ => ⟨S40962x19, .i32⟩
  | .hbm, ⟨11, _⟩ => ⟨S40962x19, .i32⟩
  | .hbm, ⟨12, _⟩ => ⟨S40962x19x1, .i32⟩
  | .hbm, ⟨13, _⟩ => ⟨S4x40962x19x64, .f32⟩
  | .hbm, ⟨14, _⟩ => ⟨S4x40962x1216, .f32⟩
  | .hbm, ⟨15, _⟩ => ⟨S4x40962x64, .f32⟩
  | .hbm, ⟨16, _⟩ => ⟨S1x1x64, .f32⟩
  | .hbm, ⟨17, _⟩ => ⟨S4x40962x64, .f32⟩
  | .hbm, ⟨18, _⟩ => ⟨S4x40962x64, .f32⟩
  | .hbm, ⟨19, _⟩ => ⟨S4x64x40962, .f32⟩
  | _, _ => ⟨S4x64x40962, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S4x64x40962_S4x40962x64_0_2_1 : S4x64x40962.Transposes [0, 2, 1] S4x40962x64
  bcast_S_S40962x19 : S_.BroadcastsInDim S40962x19 (![] : Fin 0 → Fin S40962x19.rank)
  bcast_S40962x19_S40962x19x1_0_1 : S40962x19.BroadcastsInDim S40962x19x1 (![0, 1] : Fin 2 → Fin S40962x19x1.rank)
  shapeCasts_S4x40962x19x64_S4x40962x1216 : S4x40962x19x64.ShapeCasts S4x40962x1216
  bcast_S64_S1x1x64_2 : S64.BroadcastsInDim S1x1x64 (![2] : Fin 1 → Fin S1x1x64.rank)
  bcast_S1x1x64_S4x40962x64_0_1_2 : S1x1x64.BroadcastsInDim S4x40962x64 (![0, 1, 2] : Fin 3 → Fin S4x40962x64.rank)
  transposes_S4x40962x64_S4x64x40962_0_2_1 : S4x40962x64.Transposes [0, 2, 1] S4x64x40962
  gather_S4x40962x64_S40962x19x1_S4x40962x19x64_03_1_n_n_1_2_4164_wf : GatherDims.WF S4x40962x64 S40962x19x1 S4x40962x19x64 [0, 3] [1] [] [1] [] 2 ![4, 1, 64]
  dot_S4x40962x1216_S64x1216_S4x40962x64_2_1_01_0_n_n_wf : DotDims.WF S4x40962x1216 S64x1216 S4x40962x64 [2] [1] [0, 1] [0] [] []

variable [Facts₀]

def gather_S4x40962x64_S40962x19x1_S4x40962x19x64_03_1_n_n_1_2_4164 : GatherDims S4x40962x64 S40962x19x1 S4x40962x19x64 where
  offsetDims := [0, 3]
  collapsedSliceDims := [1]
  operandBatchingDims := []
  startIndicesBatchingDims := []
  startIndexMap := [1]
  indexVectorDim := 2
  sliceSizes := ![4, 1, 64]
  wf := gather_S4x40962x64_S40962x19x1_S4x40962x19x64_03_1_n_n_1_2_4164_wf
def dot_S4x40962x1216_S64x1216_S4x40962x64_2_1_01_0_n_n : DotDims S4x40962x1216 S64x1216 S4x40962x64 where
  lhsContracting := [2]
  rhsContracting := [1]
  lhsNonContracting := [0, 1]
  rhsNonContracting := [0]
  lhsBatch := []
  rhsBatch := []
  wf := dot_S4x40962x1216_S64x1216_S4x40962x64_2_1_01_0_n_n_wf

class Facts : Prop extends Facts₀ where

variable [Facts]
-- ==== Proof.BodyBits.lean ====
/-
  The matrix-product body of the one pallas_call, run on whichever staging buffers a grid point hands it.
  The body loads the weight block (64 x 1216), the gathered-rows block (1 x 4096 x 1216) and the bias (64),
  forms  out[0, o, n] = (sum over k of w[o, k] * rows[0, n, k]) + bias[o]  as one pure term of the three
  loads, and stores it over the whole result block (1 x 64 x 4096).  The three input buffers are left as
  they were.
-/
import proofs.«149735_j50543175139553_2_alg».proof.Proof.Gen.Kernel.Frame
import proofs.«149735_j50543175139553_2_alg».proof.Proof.Gen.Kernel.Skeleton
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no variants. -/
abbrev 𝒱₀ : Variants := Variants.none

/-- One run of the body: from the four staging buffers at any contents `X0` (gathered rows), `X1` (weights),
    `X2` (bias), `X3` (result), it ends with the first three unchanged and the result buffer holding the
    product-plus-bias term of the three. -/
theorem sound_body (c : Dev nD) (E : Set ℕ) (i : grid0.Coords) (s0 : Fin 2) (s1 : Fin 1) (s2 : Fin 1) (s3 : Fin 2)
    (X0 : S1x4096x1216.Idx → Elt F .bf16) (X1 : S64x1216.Idx → Elt F .bf16) (X2 : S64.Idx → Elt F .f32)
    (X3 : S1x64x4096.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X1 X0 X2)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)
            (stage0_3 s3) (hstage0_3 s3)) K := by
  -- every access is at offset zero over the buffer's own extents: a load reads the contents, the store writes the payload
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  fin_cases s0 <;> fin_cases s1 <;> fin_cases s2 <;> fin_cases s3
  · have hr0 : (Memref.whole cc0_stg0_0 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_0 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_0 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_0 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_0 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_1 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_1 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_0 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_1 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_1 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

end Cert.Kernel.Body

end
-- ==== Proof.DataBits.lean ====
/-
  What the staging buffers hold around the body at each of the 44 grid points (4 batches x 11 column tiles),
  and the body's obligation there.

  The gathered-rows window (blocks of 4096 rows of a 40962-row array) and the result window (blocks of 4096
  columns of a 40962-column array) both overhang their arrays at the eleventh tile, where only 2 rows /
  columns lie inside.  A fetch of an overhanging block fills the buffer past the array's end with words
  nothing names, so the rows buffer is only known on the rows inside the array, and likewise only the
  columns of the result buffer that lie inside the array are written back.  The weight and bias windows are
  whole arrays fetched once.

  After the body: the rows buffer holds its block (filled out arbitrarily), the weight and bias buffers hold
  their arrays, the result buffer holds the product-plus-bias term of the three.  Two forms of the obligation
  are proved: one that says nothing about what the result buffer holds (enough for "runs to the end and leaves
  the inputs alone"), and one that names the result columns inside the array, valid whenever those columns
  do not depend on the unnamed rows.
-/
import proofs.«149735_j50543175139553_2_alg».proof.Proof.BodyBits
import Idealize.ShloMosaic.Lib.Pipeline.Frame
import Idealize.ShloMosaic.Lib.Pipeline.FrameBody
import Idealize.ShloMosaic.Lib.Pipeline.Cells

set_option maxRecDepth 16384

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows buffer after the body at point `t`: the block's rows inside the array, filled out past the array's
    end with a word nobody reads. -/
def rowsAt (c : Dev nD) (t : Fin cfg0.N) : S1x4096x1216.Idx → Elt F .bf16 :=
  win0_0.fill (grid0.coords t) (fun _ => Classical.choice (Elt.nonempty F _)) (iblk m c 0 t)

/-- The result buffer after the body at point `t`: the product-plus-bias term of the weight array, the rows
    buffer and the bias array. -/
def outAt (c : Dev nD) (t : Fin cfg0.N) : S1x64x4096.Idx → Elt F .f32 :=
  k0_pay1 (iblk m c 1 t) (rowsAt m c t) (iblk m c 2 t)

/-- The proof data of the one pipeline: arrays as the region finds them, the buffers after the body as above,
    the class invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => outAt m c t
  Φ _ := Pipeline.ΦA spec0 c
  q _ := fullShare
  owed _ := 0

/-- Only the result window is forgotten in the weaker obligation. -/
abbrev fgt3 : Fin 4 → Bool := fun | 0 => false | 1 => false | 2 => false | 3 => true | ⟨_ + 4, h⟩ => absurd h (Nat.not_lt.2 (Nat.le_add_left _ _))

/-- The rows buffer just fetched: the block on the rows inside the array, `d` elsewhere. -/
theorem before_0 (c : Dev nD) (t : Fin cfg0.N) (d) :
    (dats m 0 c).before (0 : Fin 4) t d = win0_0.fill (grid0.coords t) d (iblk m c 0 t) := by
  rw [Dat.before_fetched _ (0 : Fin 4) t (fetch0_0 t)]; rfl
/-- The weight buffer holds the weight array at every point. -/
theorem before_1 (c : Dev nD) (t : Fin cfg0.N) (d) : (dats m 0 c).before (1 : Fin 4) t d = iblk m c 1 t :=
  before0_1_of m (dats m 0 c) rfl (fun _ => rfl) t d
/-- The bias buffer holds the bias array at every point. -/
theorem before_2 (c : Dev nD) (t : Fin cfg0.N) (d) : (dats m 0 c).before (2 : Fin 4) t d = iblk m c 2 t :=
  before0_2_of m (dats m 0 c) rfl (fun _ => rfl) t d
/-- The result buffer is fresh at every point: the previous point wrote it back. -/
theorem before_3 (c : Dev nD) (t : Fin cfg0.N) (d) : (dats m 0 c).before (3 : Fin 4) t d = d :=
  Dat.before_out_reset (dats m 0 c) (3 : Fin 4) rfl t (by
    by_cases h0 : t.val = 0
    · exact .inl h0
    · exact .inr ⟨h0, flush0_3 _⟩) d

/-- The obligation that forgets the result buffer. -/
theorem body_obligation_fgt (c : Dev nD) : BodyObligationLoose (dats m 0 c) (defs₀ (F := F)) 𝒱₀ () Set.univ fgt3 := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_body (F := F) c Set.univ (grid0.coords t) (cfg0.slots t 0) (cfg0.slots t 1) (cfg0.slots t 2) (cfg0.slots t 3)
    (win0_0.fill (grid0.coords t) d0 (iblk m c 0 t)) (iblk m c 1 t) (iblk m c 2 t) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (rowsAt m c t)))
    rw [hx]; try iexact H0
  isplitl [H1]
  · iexact H1
  isplitl [H2]
  · iexact H2
  · iexists _; iexact H3

/-- The columns of the result buffer inside the array do not depend on what fills the rows buffer past the
    array's end. -/
def Local : Prop :=
  ∀ (t : Fin cfg0.N) (d d' : S1x4096x1216.Idx → Elt F .bf16) (b : (win0_0.xblock (grid0.coords t)).Idx → Elt F .bf16)
    (v0 : S64x1216.Idx → Elt F .bf16) (v5 : S64.Idx → Elt F .f32),
    win0_3.cut (grid0.coords t) (k0_pay1 v0 (win0_0.fill (grid0.coords t) d b) v5)
      = win0_3.cut (grid0.coords t) (k0_pay1 v0 (win0_0.fill (grid0.coords t) d' b) v5)

/-- The obligation that names the result columns inside the array. -/
theorem body_obligation (hloc : Local (F := F)) (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := F) c Set.univ (grid0.coords t) (cfg0.slots t 0) (cfg0.slots t 1) (cfg0.slots t 2) (cfg0.slots t 3)
    (win0_0.fill (grid0.coords t) d0 (iblk m c 0 t)) (iblk m c 1 t) (iblk m c 2 t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  have ho : win0_3.cut (grid0.coords t) (outAt m c t)
      = win0_3.cut (grid0.coords t) (k0_pay1 (iblk m c 1 t) (win0_0.fill (grid0.coords t) d0 (iblk m c 0 t)) (iblk m c 2 t)) :=
    hloc t _ d0 (iblk m c 0 t) (iblk m c 1 t) (iblk m c 2 t)
  isplitl [H0]
  · iexists d0
    change _ ⊢ owns (c : Thread nD τ) (stage0_0 (cfg0.slots t 0)) fullShare (win0_0.fill (grid0.coords t) d0 (win0_0.cut (grid0.coords t) (rowsAt m c t)))
    rw [hx]; try iexact H0
  isplitl [H1]
  · iexact H1
  isplitl [H2]
  · iexact H2
  · iexists k0_pay1 (iblk m c 1 t) (win0_0.fill (grid0.coords t) d0 (iblk m c 0 t)) (iblk m c 2 t)
    change _ ⊢ owns (c : Thread nD τ) (stage0_3 (cfg0.slots t 3)) fullShare (win0_3.fill (grid0.coords t) _ (win0_3.cut (grid0.coords t) (outAt m c t)))
    rw [ho, win0_3.fill_cut]; try iexact H3

end Cert.Kernel.Body

end
-- ==== Proof.FrameBits.lean ====
/-
  The word-level program runs to the end and leaves its four argument arrays as they were.  At the word level
  the matrix unit's product is not known to be local to a row of its right operand, so the result block's columns
  inside the array are not named here: the run is taken with the result window forgotten, which still gives
  termination, absence of faults, and the argument arrays unchanged (three of them are untouched by the region,
  the bias is an input window that is only read).
-/
import proofs.«149735_j50543175139553_2_alg».proof.Proof.DataBits

set_option maxRecDepth 16384

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

variable (m : (ℓ : Loc nD τ sig) → Buf (Elt F) ℓ) (ρ : Dev nD → PrngReg)

/-- The run with the result window forgotten: every weakly fair execution ends, every window's array at contents
    its write-backs allow, every other unscoped buffer as the region found it. -/
theorem run_fgt : θ_run defs (onTc (τ := τ) (main (F := F))) (s₀ m ρ)
    (RDat.FramePost cfg0 (fun c => (dats m 0 c).toRForget fgt3) (V m)) :=
  RDat.θ_run_frame cfgs 0 launch0 defs₀ 𝒱₀ (fun c => (dats m 0 c).toRForget fgt3) m ρ main
    (hbody := fun c => (body_obligation_fgt m c).toRForget)
    (hshare := fun c => ((dats m 0 c).toRForget fgt3).share_full fun _ => rfl)
    (howed := fun _ _ => rfl) (V := V m) (hmain := hmain m 𝒱₀) (hA := fun _ _ => rfl) (hΦ := fun _ _ => rfl)

/-- The frame: the three arrays no window stages are as launched, and the bias, an input window's array, is never
    written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((congrFun (((dats m 0 c).toRForget fgt3).ArrAt_in 2 rfl _) _).mp ((h c).1 2)).trans (V_main_arg3 m c)⟩) (run_fgt m ρ)

end Cert.Kernel.Body

end
-- ==== Proof.BodyIdeal.lean ====
/-
  The matrix-product body of the one pallas_call, run on whichever staging buffers a grid point hands it.
  The body loads the weight block (64 x 1216), the gathered-rows block (1 x 4096 x 1216) and the bias (64),
  forms  out[0, o, n] = (sum over k of w[o, k] * rows[0, n, k]) + bias[o]  as one pure term of the three
  loads, and stores it over the whole result block (1 x 64 x 4096).  The three input buffers are left as
  they were.
-/
import proofs.«149735_j50543175139553_2_alg».proof.Proof.Gen.KernelIdeal.Frame
import proofs.«149735_j50543175139553_2_alg».proof.Proof.Gen.KernelIdeal.Skeleton
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no variants. -/
abbrev 𝒱₀ : Variants := Variants.none

/-- One run of the body: from the four staging buffers at any contents `X0` (gathered rows), `X1` (weights),
    `X2` (bias), `X3` (result), it ends with the first three unchanged and the result buffer holding the
    product-plus-bias term of the three. -/
theorem sound_body (c : Dev nD) (E : Set ℕ) (i : grid0.Coords) (s0 : Fin 2) (s1 : Fin 1) (s2 : Fin 1) (s3 : Fin 2)
    (X0 : S1x4096x1216.Idx → Elt F .bf16) (X1 : S64x1216.Idx → Elt F .bf16) (X2 : S64.Idx → Elt F .f32)
    (X3 : S1x64x4096.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X1 X0 X2)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)
            (stage0_3 s3) (hstage0_3 s3)) K := by
  -- every access is at offset zero over the buffer's own extents: a load reads the contents, the store writes the payload
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  fin_cases s0 <;> fin_cases s1 <;> fin_cases s2 <;> fin_cases s3
  · have hr0 : (Memref.whole cc0_stg0_0 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_0 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_0 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_0 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_0 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_1 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_1 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_0 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S1x4096x1216) ![0, 0, 0] S1x4096x1216.size
        inb_S1x4096x1216_S1x4096x1216_0_0_0).toLoadRect = id := funext (Memref.readAt_unit_zero (Elt F) cc0_stg0_1 hz3 _)
    have hr1 : (Memref.whole cc0_stg1_0 : Memref sig .tc _ _ _).view.readAt (Elt F) (Rect.unit (s := S64x1216) ![0, 0] S64x1216.size
        inb_S64x1216_S64x1216_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x64x4096) ![0, 0, 0] S1x64x4096.size inb_S1x64x4096_S1x64x4096_0_0_0)) :
        View sig .tc _ _ _).write (Elt F) f w Finset.univ = w := Memref.write_access_unit_zero_univ (Elt F) cc0_stg3_1 hz3 _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

end Cert.KernelIdeal.Body

end
-- ==== Proof.DataIdeal.lean ====
/-
  What the staging buffers hold around the body at each of the 44 grid points (4 batches x 11 column tiles),
  and the body's obligation there.

  The gathered-rows window (blocks of 4096 rows of a 40962-row array) and the result window (blocks of 4096
  columns of a 40962-column array) both overhang their arrays at the eleventh tile, where only 2 rows /
  columns lie inside.  A fetch of an overhanging block fills the buffer past the array's end with words
  nothing names, so the rows buffer is only known on the rows inside the array, and likewise only the
  columns of the result buffer that lie inside the array are written back.  The weight and bias windows are
  whole arrays fetched once.

  After the body: the rows buffer holds its block (filled out arbitrarily), the weight and bias buffers hold
  their arrays, the result buffer holds the product-plus-bias term of the three.  Two forms of the obligation
  are proved: one that says nothing about what the result buffer holds (enough for "runs to the end and leaves
  the inputs alone"), and one that names the result columns inside the array, valid whenever those columns
  do not depend on the unnamed rows.
-/
import proofs.«149735_j50543175139553_2_alg».proof.Proof.BodyIdeal
import Idealize.ShloMosaic.Lib.Pipeline.Frame
import Idealize.ShloMosaic.Lib.Pipeline.FrameBody
import Idealize.ShloMosaic.Lib.Pipeline.Cells

set_option maxRecDepth 16384

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows buffer after the body at point `t`: the block's rows inside the array, filled out past the array's
    end with a word nobody reads. -/
def rowsAt (c : Dev nD) (t : Fin cfg0.N) : S1x4096x1216.Idx → Elt F .bf16 :=
  win0_0.fill (grid0.coords t) (fun _ => Classical.choice (Elt.nonempty F _)) (iblk m c 0 t)

/-- The result buffer after the body at point `t`: the product-plus-bias term of the weight array, the rows
    buffer and the bias array. -/
def outAt (c : Dev nD) (t : Fin cfg0.N) : S1x64x4096.Idx → Elt F .f32 :=
  k0_pay1 (iblk m c 1 t) (rowsAt m c t) (iblk m c 2 t)

/-- The proof data of the one pipeline: arrays as the region finds them, the buffers after the body as above,
    the class invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => outAt m c t
  Φ _ := Pipeline.ΦA spec0 c
  q _ := fullShare
  owed _ := 0

/-- Only the result window is forgotten in the weaker obligation. -/
abbrev fgt3 : Fin 4 → Bool := fun | 0 => false | 1 => false | 2 => false | 3 => true | ⟨_ + 4, h⟩ => absurd h (Nat.not_lt.2 (Nat.le_add_left _ _))

/-- The rows buffer just fetched: the block on the rows inside the array, `d` elsewhere. -/
theorem before_0 (c : Dev nD) (t : Fin cfg0.N) (d) :
    (dats m 0 c).before (0 : Fin 4) t d = win0_0.fill (grid0.coords t) d (iblk m c 0 t) := by
  rw [Dat.before_fetched _ (0 : Fin 4) t (fetch0_0 t)]; rfl
/-- The weight buffer holds the weight array at every point. -/
theorem before_1 (c : Dev nD) (t : Fin cfg0.N) (d) : (dats m 0 c).before (1 : Fin 4) t d = iblk m c 1 t :=
  before0_1_of m (dats m 0 c) rfl (fun _ => rfl) t d
/-- The bias buffer holds the bias array at every point. -/
theorem before_2 (c : Dev nD) (t : Fin cfg0.N) (d) : (dats m 0 c).before (2 : Fin 4) t d = iblk m c 2 t :=
  before0_2_of m (dats m 0 c) rfl (fun _ => rfl) t d
/-- The result buffer is fresh at every point: the previous point wrote it back. -/
theorem before_3 (c : Dev nD) (t : Fin cfg0.N) (d) : (dats m 0 c).before (3 : Fin 4) t d = d :=
  Dat.before_out_reset (dats m 0 c) (3 : Fin 4) rfl t (by
    by_cases h0 : t.val = 0
    · exact .inl h0
    · exact .inr ⟨h0, flush0_3 _⟩) d

/-- The obligation that forgets the result buffer. -/
theorem body_obligation_fgt (c : Dev nD) : BodyObligationLoose (dats m 0 c) (defs₀ (F := F)) 𝒱₀ () Set.univ fgt3 := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_body (F := F) c Set.univ (grid0.coords t) (cfg0.slots t 0) (cfg0.slots t 1) (cfg0.slots t 2) (cfg0.slots t 3)
    (win0_0.fill (grid0.coords t) d0 (iblk m c 0 t)) (iblk m c 1 t) (iblk m c 2 t) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (rowsAt m c t)))
    rw [hx]; try iexact H0
  isplitl [H1]
  · iexact H1
  isplitl [H2]
  · iexact H2
  · iexists _; iexact H3

/-- The columns of the result buffer inside the array do not depend on what fills the rows buffer past the
    array's end. -/
def Local : Prop :=
  ∀ (t : Fin cfg0.N) (d d' : S1x4096x1216.Idx → Elt F .bf16) (b : (win0_0.xblock (grid0.coords t)).Idx → Elt F .bf16)
    (v0 : S64x1216.Idx → Elt F .bf16) (v5 : S64.Idx → Elt F .f32),
    win0_3.cut (grid0.coords t) (k0_pay1 v0 (win0_0.fill (grid0.coords t) d b) v5)
      = win0_3.cut (grid0.coords t) (k0_pay1 v0 (win0_0.fill (grid0.coords t) d' b) v5)

/-- The obligation that names the result columns inside the array. -/
theorem body_obligation (hloc : Local (F := F)) (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := F) c Set.univ (grid0.coords t) (cfg0.slots t 0) (cfg0.slots t 1) (cfg0.slots t 2) (cfg0.slots t 3)
    (win0_0.fill (grid0.coords t) d0 (iblk m c 0 t)) (iblk m c 1 t) (iblk m c 2 t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rowsAt m c t) = iblk m c 0 t := win0_0.cut_fill _ _ _
  have ho : win0_3.cut (grid0.coords t) (outAt m c t)
      = win0_3.cut (grid0.coords t) (k0_pay1 (iblk m c 1 t) (win0_0.fill (grid0.coords t) d0 (iblk m c 0 t)) (iblk m c 2 t)) :=
    hloc t _ d0 (iblk m c 0 t) (iblk m c 1 t) (iblk m c 2 t)
  isplitl [H0]
  · iexists d0
    change _ ⊢ owns (c : Thread nD τ) (stage0_0 (cfg0.slots t 0)) fullShare (win0_0.fill (grid0.coords t) d0 (win0_0.cut (grid0.coords t) (rowsAt m c t)))
    rw [hx]; try iexact H0
  isplitl [H1]
  · iexact H1
  isplitl [H2]
  · iexact H2
  · iexists k0_pay1 (iblk m c 1 t) (win0_0.fill (grid0.coords t) d0 (iblk m c 0 t)) (iblk m c 2 t)
    change _ ⊢ owns (c : Thread nD τ) (stage0_3 (cfg0.slots t 3)) fullShare (win0_3.fill (grid0.coords t) _ (win0_3.cut (grid0.coords t) (outAt m c t)))
    rw [ho, win0_3.fill_cut]; try iexact H3

end Cert.KernelIdeal.Body

end
-- ==== Proof.LibMatmulRows.lean ====
/-
  A matrix product with the right operand given by rows, read at an entry. For dimension numbers that contract the
  left operand's axis 1 with the right operand's axis 1 and have no batch axis, the product of an [A, K] and a [B, K]
  array accumulated into the zero splat has, at `(p, q)`, the value `∑ k, lhs (p, k) * rhs (q, k)` on the extended
  reals; for any sizes A, K, B and any two float formats of the operands (a change of format is the identity on the
  extended reals).
-/
import Idealize.ShloMosaic.PureOps.Ideal.Laws
import Idealize.ShloMosaic.Lib.ValueIdx

noncomputable section

open scoped BigOperators
open Idealize.ShloMosaic Idealize.ShloMosaic.ValueIdx

namespace MatmulRows

/-- The matrix product `lhs · rhsᵀ` into a zero accumulator at entry `(p, q)`. -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have r1 : (D.rhsIdx (ix2 p q) ((contrEquiv1 D K rfl rfl).symm k) (1 : Fin 2)).val = k.val :=
    (D.rhsIdx_val_of_single rfl (ix2 p q) _).trans hk
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulRows

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.PayIdeal.lean ====
/-
  The body's stored term read at one entry, on the extended reals.  With w the weight block (64 x 1216),
  rows the gathered-rows block (1 x 4096 x 1216) and bias the bias vector (64), the term stored into the
  result block (1 x 64 x 4096) has, at (0, o, n), the value

      (sum over k < 1216 of w (o, k) * rows (0, n, k)) + bias o .

  So column n of the result block depends on row n of the rows block only: rows of the rows block that lie
  past the end of the array never reach a column that is written back.
-/
import proofs.«149735_j50543175139553_2_alg».proof.Proof.Gen.KernelIdeal.Skeleton
import proofs.«149735_j50543175139553_2_alg».proof.Proof.LibMatmulRows
import proofs.«149735_j50543175139553_2_alg».proof.Proof.LibColumn
import Idealize.ShloMosaic.Lib.Pipeline.Value
import Idealize.ShloMosaic.Lib.ValueIdx
import Idealize.ShloMosaic.PureOps.Ideal.Laws

noncomputable section

namespace Cert.KernelIdeal.Pay

open scoped BigOperators
open Cert.KernelIdeal Cert.KernelIdeal.Gen Idealize.ShloMosaic Idealize.ShloMosaic.ValueIdx

/-- Dropping the leading unit axis of the rows block: entry (n, k) of the 4096 x 1216 matrix is entry (0, n, k). -/
theorem rows_cast_apply {α : Type} (v : S1x4096x1216.Idx → α) (n : Fin 4096) (k : Fin 1216) :
    shapeCast S4096x1216 v shapeCasts_S1x4096x1216_S4096x1216 (ix2 n k) = v (ix3 (0 : Fin 1) n k) :=
  shapeCast_apply v shapeCasts_S1x4096x1216_S4096x1216 (ix2 n k) (ix3 (0 : Fin 1) n k) (by
    rw [Shape.rowMajor_val_three, Shape.rowMajor_val_two]
    show (0 * 4096 + n.val) * 1216 + k.val = n.val * 1216 + k.val
    omega)

/-- Adding the leading unit axis of the result block: entry (0, o, n) is entry (o, n) of the 64 x 4096 matrix. -/
theorem out_cast_apply {α : Type} (v : S64x4096.Idx → α) (o : Fin 64) (n : Fin 4096) :
    shapeCast S1x64x4096 v shapeCasts_S64x4096_S1x64x4096 (ix3 (0 : Fin 1) o n) = v (ix2 o n) :=
  shapeCast_apply v shapeCasts_S64x4096_S1x64x4096 (ix3 (0 : Fin 1) o n) (ix2 o n) (by
    rw [Shape.rowMajor_val_two, Shape.rowMajor_val_three]
    show o.val * 4096 + n.val = (0 * 64 + o.val) * 4096 + n.val
    omega)

/-- The stored term at entry (0, o, n): the inner product of weight row o with rows-block row n, plus bias o. -/
theorem pay_apply (v0 : Vec Ideal S64x1216 .bf16) (v2 : Vec Ideal S1x4096x1216 .bf16) (v5 : Vec Ideal S64 .f32)
    (o : Fin 64) (n : Fin 4096) :
    k0_pay1 (F := Ideal) v0 v2 v5 (ix3 (0 : Fin 1) o n)
      = (∑ k : Fin 1216, v0 (ix2 o k) * v2 (ix3 (0 : Fin 1) n k)) + v5 (ix1 o) := by
  unfold k0_pay1
  refine (out_cast_apply _ o n).trans ?_
  show (_ : EReal) + _ = _
  refine congrArg₂ (· + ·) ?_ ?_
  · refine (MatmulRows.matmul_zero_apply (A := 64) (K := 1216) (B := 4096) dot_S64x1216_S4096x1216_S64x4096_1_1_0_0_n_n
      rfl rfl rfl rfl rfl rfl none _ _ o n).trans ?_
    refine Finset.sum_congr rfl fun k _ => ?_
    rw [shapeCast_self, rows_cast_apply]
  · refine (Cert.Lib.Column.broadcastTo_a1_ab_apply (a := 64) (b := 4096) _ broadcasts_S64x1_S64x4096 o n).trans ?_
    exact Cert.Lib.Column.shapeCast_a_a1_apply (a := 64) v5 shapeCasts_S64_S64x1 o (0 : Fin 1)

end Cert.KernelIdeal.Pay

end
-- ==== Proof.RunIdeal.lean ====
/-
  The idealized kernel's run, on the extended reals.  There the matrix product at (o, n) is the inner product of
  weight row o with rows-block row n, so the result columns inside the array (n below 2 at the eleventh tile,
  below 4096 elsewhere) never read a row of the rows buffer past the array's end: whatever fills those rows, the
  written-back columns are the same.  With that the exact obligation holds, the run names every window's array
  after the last write-back, and the frame claim follows.
-/
import proofs.«149735_j50543175139553_2_alg».proof.Proof.DataIdeal
import proofs.«149735_j50543175139553_2_alg».proof.Proof.PayIdeal

set_option maxRecDepth 16384

noncomputable section

namespace Cert.KernelIdeal.Body

open scoped BigOperators
open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

/-- The stored term at any entry j of the result block: (sum over k of w (j1, k) * rows (0, j2, k)) + bias j1. -/
theorem pay_at (v0 : Vec Ideal S64x1216 .bf16) (v2 : Vec Ideal S1x4096x1216 .bf16) (v5 : Vec Ideal S64 .f32) (j : S1x64x4096.Idx) :
    k0_pay1 (F := Ideal) v0 v2 v5 j = (∑ k : Fin 1216, v0 (ix2 (j 1) k) * v2 (ix3 (0 : Fin 1) (j 2) k)) + v5 (ix1 (j 1)) := by
  have h0 : (j 0).val < 1 := (j 0).isLt
  have hj : j = ix3 (0 : Fin 1) (j 1) (j 2) :=
    (eq_ix3 j).trans (congrArg (fun a => ix3 a (j 1) (j 2)) (Fin.ext (by show (j 0).val = 0; omega)))
  exact (congrArg (k0_pay1 (F := Ideal) v0 v2 v5) hj).trans (Pay.pay_apply v0 v2 v5 (j 1) (j 2))

/-- The schedule in closed form: point t is batch t / 11 and column tile t % 11; the rows window's block index is
    (batch, tile, 0), the result window's (batch, 0, tile), the weight and bias windows stay at 0; the cut at the
    array's end leaves 2 rows / columns at tile 10 and the whole 4096 elsewhere. -/
theorem pt_facts : ∀ t : Fin cfg0.N,
    win0_3.index t (0 : Fin 3) = t.val / 11 ∧ win0_3.index t (1 : Fin 3) = 0 ∧ win0_3.index t (2 : Fin 3) = t.val % 11
    ∧ win0_0.index t (0 : Fin 3) = t.val / 11 ∧ win0_0.index t (1 : Fin 3) = t.val % 11 ∧ win0_0.index t (2 : Fin 3) = 0
    ∧ win0_1.index t (0 : Fin 2) = 0 ∧ win0_1.index t (1 : Fin 2) = 0 ∧ win0_2.index t (0 : Fin 1) = 0
    ∧ win0_3.xsize (grid0.coords t) (0 : Fin 3) = 1 ∧ win0_3.xsize (grid0.coords t) (1 : Fin 3) = 64
    ∧ win0_3.xsize (grid0.coords t) (2 : Fin 3) = (if t.val % 11 = 10 then 2 else 4096)
    ∧ win0_0.xsize (grid0.coords t) (0 : Fin 3) = 1
    ∧ win0_0.xsize (grid0.coords t) (1 : Fin 3) = (if t.val % 11 = 10 then 2 else 4096)
    ∧ win0_0.xsize (grid0.coords t) (2 : Fin 3) = 1216 :=
  (by decide +kernel : ∀ t : Fin grid0.N, _)

/-- A row of the rows block that a written-back column reads lies inside the array. -/
theorem moved_row (t : Fin cfg0.N) (y : (win0_3.xblock (grid0.coords t)).Idx) (k : Fin 1216) :
    win0_0.moved (grid0.coords t) (ix3 (0 : Fin 1) (win0_3.xinj (grid0.coords t) y 2) k) = true := by
  obtain ⟨-, -, -, -, -, -, -, -, -, -, -, e3, f0, f1, f2⟩ := pt_facts t
  refine (win0_0.moved_iff _ _).mpr fun a => ?_
  have hy : (y 2).val < win0_3.xsize (grid0.coords t) (2 : Fin 3) := (y 2).isLt
  match a with
  | ⟨0, _⟩ => show 0 < win0_0.xsize (grid0.coords t) (0 : Fin 3); omega
  | ⟨1, _⟩ => show (y 2).val < win0_0.xsize (grid0.coords t) (1 : Fin 3); omega
  | ⟨2, _⟩ => show k.val < win0_0.xsize (grid0.coords t) (2 : Fin 3); have := k.isLt; omega

/-- On the extended reals the written-back columns do not depend on the filler. -/
theorem local_ideal : Local (F := Ideal) := fun t d d' b v0 v5 => by
  funext y
  show k0_pay1 (F := Ideal) v0 (win0_0.fill (grid0.coords t) d b) v5 (win0_3.xinj (grid0.coords t) y)
     = k0_pay1 (F := Ideal) v0 (win0_0.fill (grid0.coords t) d' b) v5 (win0_3.xinj (grid0.coords t) y)
  rw [pay_at, pay_at]
  refine congrArg (· + _) (Finset.sum_congr rfl fun k _ => congrArg (_ * ·) ?_)
  have hm := moved_row t y k
  unfold Window.fill
  rw [dif_pos hm, dif_pos hm]

variable (m : (ℓ : Loc nD τ sig) → Buf (Elt Ideal) ℓ) (ρ : Dev nD → PrngReg)

/-- The run: every weakly fair execution ends with each window's array at what its write-backs leave and every
    other unscoped buffer as the region found it. -/
theorem run_main : θ_run defs (onTc (τ := τ) (main (F := Ideal))) (s₀ m ρ) (Pipeline.FramePost cfgs (dats m) 0 (V m)) :=
  Pipeline.θ_run_frame cfgs (dats m) 0 launch0 defs₀ 𝒱₀ m ρ main
    (hbody := fun c => body_obligation m local_ideal c)
    (hshare := fun c => (dats m 0 c).share_full fun _ => rfl)
    (howed := fun _ _ => rfl) (V := V m) (hmain := hmain m 𝒱₀) (hA := fun _ _ => rfl) (hΦ := fun _ _ => rfl)

/-- The frame: the argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (fun _ _ => rfl) (run_main m ρ)

end Cert.KernelIdeal.Body

end
-- ==== Proof.Spec.lean ====
/-
  The function both programs compute, on the extended reals.  With rows the gathered-and-flattened input
  (4 x 40962 x 1216: for each batch and vertex the 19 ring neighbours' 64 features side by side), w the weights
  (64 x 1216) and bias the bias (64), the result (4 x 64 x 40962) is

      out (b, o, n) = (sum over k < 1216 of w (o, k) * rows (b, n, k)) + bias o .

  The reference forms the products the other way round, rows (b, n, k) * w (o, k), in the layout (b, n, o), and
  transposes at the end; multiplication of extended reals is commutative, so the two agree entry by entry, with
  no condition on the entries.
-/
import Idealize.ShloMosaic.PureOps.Ideal
import Idealize.ShloMosaic.Lib.ValueIdx

noncomputable section

namespace Cert.Spec

open scoped BigOperators
open Idealize.ShloMosaic Idealize.ShloMosaic.ValueIdx

/-- The ring convolution as one function of the flattened gathered rows, the weights and the bias. -/
def conv (rows : (⟨3, ![4, 40962, 1216]⟩ : Shape).Idx → EReal) (w : (⟨2, ![64, 1216]⟩ : Shape).Idx → EReal)
    (bias : (⟨1, ![64]⟩ : Shape).Idx → EReal) : (⟨3, ![4, 64, 40962]⟩ : Shape).Idx → EReal :=
  fun j => (∑ k : Fin 1216, w (ix2 (j 1) k) * rows (ix3 (j 0) (j 2) k)) + bias (ix1 (j 1))

end Cert.Spec

end
-- ==== Proof.FinalIdeal.lean ====
/-
  The result array after the idealized kernel's run is the ring convolution of the arrays the region finds.
  Point t = 11 * batch + tile writes back the columns of its result block that lie inside the array; entry
  (0, o, n) of that block is (sum over k of W (o, k) * rows (batch, 4096 * tile + n, k)) + bias o, which is the
  convolution's entry (batch, o, 4096 * tile + n).  Every entry (b, o, n) of the array lies in the block of the
  point 11 * b + n / 4096, so the 44 write-backs piece the whole convolution together.
-/
import proofs.«149735_j50543175139553_2_alg».proof.Proof.RunIdeal
import proofs.«149735_j50543175139553_2_alg».proof.Proof.Spec
import Idealize.ShloMosaic.Lib.Pipeline.Value

set_option maxRecDepth 16384

noncomputable section

namespace Cert.KernelIdeal.Body

open scoped BigOperators
open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable (m : (ℓ : Loc nD τ sig) → Buf (Elt Ideal) ℓ) (ρ : Dev nD → PrngReg)

/-- The convolution of the rows, weight and bias arrays as the region finds them. -/
def convAt (c : Dev nD) : S4x64x40962.Idx → EReal :=
  Cert.Spec.conv (V m c main_v9 : S4x40962x1216.Idx → EReal) (V m c main_v10 : S64x1216.Idx → EReal)
    (V m c main_arg3 : S64.Idx → EReal)

/-- What point t writes back is block t of the convolution. -/
theorem flushed_eq (c : Dev nD) (t : Fin cfg0.N) :
    (dats m 0 c).flushed (3 : Fin 4) t = ((cfg0.win 3).blk t).view.read (Elt Ideal) (convAt m c) := by
  obtain ⟨e0, e1, e2, a0, a1, a2, b0, b1, c0, x0, x1, x2, f0, f1, f2⟩ := pt_facts t
  funext y
  rw [View.read_apply]
  show outAt m c t (win0_3.xinj (grid0.coords t) y) = convAt m c (((cfg0.win 3).blk t).view.emb y)
  unfold outAt
  rw [pay_at]
  unfold convAt Cert.Spec.conv
  have hy0 : (y 0).val < win0_3.xsize (grid0.coords t) (0 : Fin 3) := (y 0).isLt
  have hy1 : (y 1).val < win0_3.xsize (grid0.coords t) (1 : Fin 3) := (y 1).isLt
  have hy2 : (y 2).val < win0_3.xsize (grid0.coords t) (2 : Fin 3) := (y 2).isLt
  refine congrArg₂ (· + ·) (Finset.sum_congr rfl fun k _ => congrArg₂ (· * ·) ?_ ?_) ?_
  · -- the weight entry
    unfold iblk
    rw [View.read_apply]
    refine congrArg (V m c main_v10) (funext fun a => Fin.ext ?_)
    match a with
    | ⟨0, _⟩ =>
      show win0_1.index t (0 : Fin 2) * 64 + 1 * (y 1).val = win0_3.index t (1 : Fin 3) * 64 + 1 * (y 1).val
      omega
    | ⟨1, _⟩ =>
      show win0_1.index t (1 : Fin 2) * 1216 + 1 * k.val = k.val
      omega
  · -- the rows entry
    unfold rowsAt Window.fill
    rw [dif_pos (moved_row t y k)]
    unfold iblk
    rw [View.read_apply]
    refine congrArg (V m c main_v9) (funext fun a => Fin.ext ?_)
    match a with
    | ⟨0, _⟩ =>
      show win0_0.index t (0 : Fin 3) * 1 + 1 * 0 = win0_3.index t (0 : Fin 3) * 1 + 1 * (y 0).val
      omega
    | ⟨1, _⟩ =>
      show win0_0.index t (1 : Fin 3) * 4096 + 1 * (y 2).val = win0_3.index t (2 : Fin 3) * 4096 + 1 * (y 2).val
      omega
    | ⟨2, _⟩ =>
      show win0_0.index t (2 : Fin 3) * 1216 + 1 * k.val = k.val
      omega
  · -- the bias entry
    unfold iblk
    rw [View.read_apply]
    refine congrArg (V m c main_arg3) (funext fun a => Fin.ext ?_)
    match a with
    | ⟨0, _⟩ =>
      show win0_2.index t (0 : Fin 1) * 64 + 1 * (y 1).val = win0_3.index t (1 : Fin 3) * 64 + 1 * (y 1).val
      omega

/-- An entry of the array is in point t's written-back block iff each coordinate is in the block's range cut at the
    array's end. -/
theorem mem_blk (t : Fin cfg0.N) (i : S4x64x40962.Idx) :
    i ∈ ((cfg0.win 3).blk t).view.set ↔ ∀ a : Fin 3, win0_3.index t a * S1x64x4096.size a ≤ (i a).val
      ∧ (i a).val < win0_3.index t a * S1x64x4096.size a + win0_3.xsize (grid0.coords t) a := by
  show i ∈ ((View.whole main_v11).slice (win0_3.rect t)).set ↔ _
  rw [View.set_slice_whole, Rect.mem_set_unit]
  exact Iff.rfl

/-- Every entry (b, o, n) is written back by the point 11 * b + n / 4096. -/
theorem cover (i : S4x64x40962.Idx) :
    ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 40962 := (i 2).isLt
  have hN : (i 0).val * 11 + (i 2).val / 4096 < cfg0.N := by show _ < grid0.N; rw [N_0]; omega
  obtain ⟨t, htv⟩ : ∃ t : Fin cfg0.N, t.val = (i 0).val * 11 + (i 2).val / 4096 := ⟨⟨_, hN⟩, rfl⟩
  refine ⟨t, flush0_3 t, ?_⟩
  rw [mem_blk]
  obtain ⟨e0, e1, e2, -, -, -, -, -, -, x0, x1, x2, -, -, -⟩ := pt_facts t
  split_ifs at x2 with hc <;> intro a <;>
  match a with
  | ⟨0, _⟩ =>
    show win0_3.index t (0 : Fin 3) * 1 ≤ (i 0).val ∧ (i 0).val < win0_3.index t (0 : Fin 3) * 1 + win0_3.xsize (grid0.coords t) (0 : Fin 3)
    omega
  | ⟨1, _⟩ =>
    show win0_3.index t (1 : Fin 3) * 64 ≤ (i 1).val ∧ (i 1).val < win0_3.index t (1 : Fin 3) * 64 + win0_3.xsize (grid0.coords t) (1 : Fin 3)
    omega
  | ⟨2, _⟩ =>
    show win0_3.index t (2 : Fin 3) * 4096 ≤ (i 2).val ∧ (i 2).val < win0_3.index t (2 : Fin 3) * 4096 + win0_3.xsize (grid0.coords t) (2 : Fin 3)
    omega

/-- The result array after the last write-back is the whole convolution. -/
theorem final (c : Dev nD) : (dats m 0 c).arrAt (3 : Fin 4) cfg0.N = convAt m c :=
  (dats m 0 c).arrAt_eq_of_cover (3 : Fin 4) (convAt m c) (fun t _ => flushed_eq m c t) (cover)

end Cert.KernelIdeal.Body

end
-- ==== Proof.HostPrefix.lean ====
/-
  What the region finds in the arrays the host wrote before it, on the extended reals.  The kernel's host prefix
  transposes x, changes its float format (the identity on the extended reals), normalises the neighbour indices
  (a negative index has 40962 added), gathers the neighbours' feature rows and flattens the 19 x 64 ring axes:
  the very stages the reference runs on x in its own format.  So the rows array the kernel's first window stages is
  the reference's flattened gathered rows, the weight array the second window stages is W itself, and the bias
  is untouched.
-/
import proofs.«149735_j50543175139553_2_alg».proof.Proof.Gen.KernelIdeal.Frame
import proofs.«149735_j50543175139553_2_alg».proof.Proof.Gen.ReferenceIdeal.Read
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The rows array as the region finds it is the reference's flattened gathered rows of the same x and indices. -/
theorem rows_eq (c : Dev nD) :
    (V m c main_v9 : S4x40962x1216.Idx → EReal)
      = Cert.ReferenceIdeal.Read.val_main_v8 (F := Ideal) (m ((c : Thread nD τ).loc main_arg0)) (m ((c : Thread nD τ).loc main_arg1)) := by
  dsimp only [Gen.V, Gen.hostOps0]
  after_results
  rfl

/-- The weight array as the region finds it is W. -/
theorem weights_eq (c : Dev nD) :
    (V m c main_v10 : S64x1216.Idx → EReal) = m ((c : Thread nD τ).loc main_arg2) := by
  dsimp only [Gen.V, Gen.hostOps0]
  after_results
  rfl

end Cert.KernelIdeal.HostValue

end
-- ==== Proof.ValueIdeal.lean ====
/-
  The idealized kernel's run with its result named: every weakly fair execution ends with the result array holding
  the ring convolution of the reference's flattened gathered rows of x and the indices, W and b, and with the four
  argument arrays as launched.
-/
import proofs.«149735_j50543175139553_2_alg».proof.Proof.FinalIdeal
import proofs.«149735_j50543175139553_2_alg».proof.Proof.HostPrefix

set_option maxRecDepth 16384

noncomputable section

namespace Cert.KernelIdeal.Body

open scoped BigOperators
open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable (m : (ℓ : Loc nD τ sig) → Buf (Elt Ideal) ℓ) (ρ : Dev nD → PrngReg)

/-- The convolution of the arrays the region finds is the convolution of the launch arguments. -/
theorem convAt_eq (c : Dev nD) :
    convAt m c = Cert.Spec.conv
      (Cert.ReferenceIdeal.Read.val_main_v8 (F := Ideal) (m ((c : Thread nD τ).loc main_arg0)) (m ((c : Thread nD τ).loc main_arg1)))
      (m ((c : Thread nD τ).loc main_arg2)) (m ((c : Thread nD τ).loc main_arg3)) := by
  unfold convAt
  rw [HostValue.rows_eq m c, HostValue.weights_eq m c, V_main_arg3 m c]

/-- The run, its result read. -/
theorem run_value : θ_run defs (onTc (τ := τ) (main (F := Ideal))) ⟨m, fun _ => 0, ρ⟩ (fun r => ∀ c : Dev nD,
      r.2.mem ((c.tc : Thread nD τ).loc main_v11) = Cert.Spec.conv
        (Cert.ReferenceIdeal.Read.val_main_v8 (F := Ideal) (m ((c.tc : Thread nD τ).loc main_arg0)) (m ((c.tc : Thread nD τ).loc main_arg1)))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans ((final m c).trans (convAt_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans (V_main_arg3 m c))⟩) (run_main m ρ)

end Cert.KernelIdeal.Body

end
-- ==== Proof.RefSide.lean ====
/-
  The reference's result is the ring convolution of the specification.  Read one operation at a time, entry
  (b, o, n) of the reference's transposed result is entry (b, n, o) of  einsum(rows, w) + bias , that is
  (sum over k of rows (b, n, k) * w (o, k)) + bias o ; commuting each product gives the specification's entry.
  The gathered-and-flattened rows are kept as one named stage and never opened.
-/
import proofs.«149735_j50543175139553_2_alg».proof.Proof.Gen.ReferenceIdeal.Read
import proofs.«149735_j50543175139553_2_alg».proof.Proof.Spec

noncomputable section

namespace Cert.ReferenceIdeal.RefValue

open scoped BigOperators
open Cert.ReferenceIdeal Cert.ReferenceIdeal.Gen Cert.ReferenceIdeal.Read Idealize.ShloMosaic Idealize.ShloMosaic.ValueIdx

/-- The reference's last stage is the specification applied to its gathered rows, the weights and the bias. -/
theorem result_eq (x0 : S4x64x40962.Idx → EReal) (x1 : (⟨S40962x19, .i32⟩ : BufTy).Contents (Elt Ideal))
    (x2 : S64x1216.Idx → EReal) (x3 : S64.Idx → EReal) :
    val_main_v13 (F := Ideal) x0 x1 x2 x3 = Cert.Spec.conv (val_main_v8 (F := Ideal) x0 x1) x2 x3 := by
  funext i
  rw [val_main_v13_apply, val_main_v12_apply, val_main_v9_apply, val_main_v11_apply, val_main_v10_apply]
  unfold Cert.Spec.conv
  show (_ : EReal) + _ = _
  refine congrArg₂ (· + ·) ?_ ?_
  · refine Finset.sum_congr rfl fun k _ => ?_
    rw [mul_comm]
    refine congrArg₂ (· * ·) ?_ ?_
    · exact congrArg x2 (funext fun a => Fin.ext (by match a with | ⟨0, _⟩ => rfl | ⟨1, _⟩ => rfl))
    · exact congrArg (val_main_v8 (F := Ideal) x0 x1) (funext fun a => Fin.ext (by match a with | ⟨0, _⟩ => rfl | ⟨1, _⟩ => rfl | ⟨2, _⟩ => rfl))
  · exact congrArg x3 (funext fun a => Fin.ext (by match a with | ⟨0, _⟩ => rfl))

end Cert.ReferenceIdeal.RefValue

end
-- ==== Proof.lean ====
/-
  The certificate: a two-ring graph convolution as a blocked matrix product over gathered neighbour rows, against
  its reference.

  Both programs gather, for each of 40962 vertices, the feature rows of its 19 ring neighbours (indices normalised
  the same way, the gather the same operation on the same transposed x) and flatten them to rows of 1216 entries.
  The kernel multiplies the weights (64 x 1216) by blocks of 4096 such rows at a time and adds the bias, giving
  out (b, o, n) = (sum over k of W (o, k) * rows (b, n, k)) + bias o directly in the layout (b, o, n); the reference
  forms the products rows (b, n, k) * W (o, k) in the layout (b, n, o), adds the bias and transposes.  On the extended reals a change of float format is the identity
  and multiplication is commutative, so the two results agree entry by entry; no entry needs to be finite.

  40962 is not a multiple of 4096: the eleventh block of each batch overhangs the array and only 2 of its rows
  (columns of the result) are inside.  On the extended reals a result column reads only its own row of the rows
  block, so the unnamed rows past the array's end never reach a column that is written back.  At the word level
  that locality is not available for the matrix unit, and the frame there is proved with the result window's
  contents left unnamed.

  frame_Kernel, frame_KernelIdeal: the hand-written body and proof data over the generated launch side.
  frame_ReferenceIdeal: the generated run with its result dropped.  preserves: no rewrite was applied.
  algebraic: the kernel's run with its result read block by block, the reference's run read stage by stage, and
  the commuted products.
-/
import proofs.«149735_j50543175139553_2_alg».proof.Defs
import proofs.«149735_j50543175139553_2_alg».proof.Proof.Gen.Kernel
import proofs.«149735_j50543175139553_2_alg».proof.Proof.Gen.KernelIdeal
import proofs.«149735_j50543175139553_2_alg».proof.Proof.Gen.ReferenceIdeal
import proofs.«149735_j50543175139553_2_alg».proof.Proof.Gen.ReferenceIdeal.Run
import proofs.«149735_j50543175139553_2_alg».proof.Proof.Gen.ReferenceIdeal.Read
import proofs.«149735_j50543175139553_2_alg».proof.Proof.Gen.Pre_finite_inputs
import proofs.«149735_j50543175139553_2_alg».proof.Proof.FrameBits
import proofs.«149735_j50543175139553_2_alg».proof.Proof.ValueIdeal
import proofs.«149735_j50543175139553_2_alg».proof.Proof.RefSide
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the ring convolution of the same gathered rows, weights and bias. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
